-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S3200000 : Shape := ⟨1, ![3200000]⟩
abbrev S3200000x3 : Shape := ⟨2, ![3200000, 3]⟩
abbrev S1x3x3 : Shape := ⟨3, ![1, 3, 3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000x3 : S_.BroadcastsInDim S3200000x3 (![] : Fin 0 → Fin S3200000x3.rank)
  reducesTo_S3200000x3_S_d0_1 : S3200000x3.ReducesTo [0, 1] S_
  bcast_S_S1x3x3 : S_.BroadcastsInDim S1x3x3 (![] : Fin 0 → Fin S1x3x3.rank)
  reducesTo_S1x3x3_S_d0_1_2 : S1x3x3.ReducesTo [0, 1, 2] S_

variable [Facts]

def fn {F : FTy → Type} [FloatOps F] (main_arg0 : FVec F S100000x3 .f32) (main_arg1 : IVec S3200000 32) (main_arg2 : IVec S3200000 32) (main_arg3 : FVec F S3200000x3 .f32) (main_arg4 : FVec F S1x3x3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3200000x3 .f32 := Host.absf main_arg3
  let main_cst_0 : FVec F S_ .f32 := constant S_ .f32 0x7F800000#32
  let main_v5 : FVec F S3200000x3 .f32 := broadcastInDim S3200000x3 ![] bcast_S_S3200000x3 main_cst_0
  let main_v6 : IVec S3200000x3 1 := cmpf .olt main_v4 main_v5
  let main_c_1 : IVec S_ 1 := constantI S_ 1 1#1
  let main_v7 : IVec S_ 1 := (fun x v => Host.reduce IntOp.andi x v reducesTo_S3200000x3_S_d0_1 h_S_) main_v6 main_c_1
  let main_v8 : IVec S_ 1 := andi main_v3 main_v7
  let main_v9 : FVec F S1x3x3 .f32 := Host.absf main_arg4
  let main_cst_2 : FVec F S_ .f32 := constant S_ .f32 0x7F800000#32
  let main_v10 : FVec F S1x3x3 .f32 := broadcastInDim S1x3x3 ![] bcast_S_S1x3x3 main_cst_2
  let main_v11 : IVec S1x3x3 1 := cmpf .olt main_v9 main_v10
  let main_c_3 : IVec S_ 1 := constantI S_ 1 1#1
  let main_v12 : IVec S_ 1 := (fun x v => Host.reduce IntOp.andi x v reducesTo_S1x3x3_S_d0_1_2 h_S_) main_v11 main_c_3
  let main_v13 : IVec S_ 1 := andi main_v8 main_v12
  main_v13
-- ==== Kernel.lean ====
abbrev S100000x3 : Shape := ⟨2, ![100000, 3]⟩
abbrev S3200000 : Shape := ⟨1, ![3200000]⟩
abbrev S3200000x3 : Shape := ⟨2, ![3200000, 3]⟩
abbrev S1x3x3 : Shape := ⟨3, ![1, 3, 3]⟩
abbrev S_ : Shape := ⟨0, ![]⟩
abbrev S3200000x1 : Shape := ⟨2, ![3200000, 1]⟩
abbrev S3x3 : Shape := ⟨2, ![3, 3]⟩
abbrev S5120x3 : Shape := ⟨2, ![5120, 3]⟩
abbrev S5120 : Shape := ⟨1, ![5120]⟩
abbrev S5120x1 : Shape := ⟨2, ![5120, 1]⟩
abbrev S1x3 : Shape := ⟨2, ![1, 3]⟩

abbrev nBuf : Space → Nat
  | .hbm => 32
  | .vmem => 15
  | .smem => 0
  | _ => 0

abbrev bufTy : (tb : Table) → Fin (tcTables nBuf tb) → BufTy
  | .hbm, ⟨0, _⟩ => ⟨S100000x3, .f32⟩
  | .hbm, ⟨1, _⟩ => ⟨S3200000, .i32⟩
  | .hbm, ⟨2, _⟩ => ⟨S3200000, .i32⟩
  | .hbm, ⟨3, _⟩ => ⟨S3200000x3, .f32⟩
  | .hbm, ⟨4, _⟩ => ⟨S1x3x3, .f32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x3, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x3, .f32⟩
  | .hbm, ⟨23, _⟩ => ⟨S3x3, .f32⟩
  | .hbm, ⟨24, _⟩ => ⟨S3200000x3, .f32⟩
  | .hbm, ⟨25, _⟩ => ⟨S3200000, .f32⟩
  | .hbm, ⟨26, _⟩ => ⟨S3200000, .f32⟩
  | .hbm, ⟨27, _⟩ => ⟨S3200000, .i32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S3200000, .i1⟩
  | .local _ .vmem, ⟨0, _⟩ => ⟨S5120x3, .f32⟩
  | .local _ .vmem, ⟨1, _⟩ => ⟨S5120x3, .f32⟩
  | .local _ .vmem, ⟨2, _⟩ => ⟨S5120x3, .f32⟩
  | .local _ .vmem, ⟨3, _⟩ => ⟨S5120x3, .f32⟩
  | .local _ .vmem, ⟨4, _⟩ => ⟨S5120x3, .f32⟩
  | .local _ .vmem, ⟨5, _⟩ => ⟨S5120x3, .f32⟩
  | .local _ .vmem, ⟨6, _⟩ => ⟨S3x3, .f32⟩
  | .local _ .vmem, ⟨7, _⟩ => ⟨S5120x3, .f32⟩
  | .local _ .vmem, ⟨8, _⟩ => ⟨S5120x3, .f32⟩
  | .local _ .vmem, ⟨9, _⟩ => ⟨S5120, .f32⟩
  | .local _ .vmem, ⟨10, _⟩ => ⟨S5120, .f32⟩
  | .local _ .vmem, ⟨11, _⟩ => ⟨S5120, .f32⟩
  | .local _ .vmem, ⟨12, _⟩ => ⟨S5120, .f32⟩
  | .local _ .vmem, ⟨13, _⟩ => ⟨S5120, .i32⟩
  | .local _ .vmem, ⟨14, _⟩ => ⟨S5120, .i32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S5120x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5120 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5120 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S1x3x3_S3x3 : S1x3x3.ShapeCasts S3x3
  inb_S5120x3_S5120x3_0_0 : ∀ a, (![0, 0] : Fin 2 → Nat) a + S5120x3.size a ≤ S5120x3.size a
  h_S5120x3 : 0 < S5120x3.numel
  shapeCasts_S5120x3_S5120x3 : S5120x3.ShapeCasts S5120x3
  inb_S3x3_S3x3_0_0 : ∀ a, (![0, 0] : Fin 2 → Nat) a + S3x3.size a ≤ S3x3.size a
  h_S3x3 : 0 < S3x3.numel
  shapeCasts_S3x3_S3x3 : S3x3.ShapeCasts S3x3
  slices_S5120x3_o0_0_S5120x1 : S5120x3.Slices ![0, 0] S5120x1
  slices_S3x3_o0_0_S1x3 : S3x3.Slices ![0, 0] S1x3
  broadcasts_S5120x1_S5120x3 : S5120x1.Broadcasts S5120x3
  broadcasts_S1x3_S5120x3 : S1x3.Broadcasts S5120x3
  slices_S5120x3_o0_1_S5120x1 : S5120x3.Slices ![0, 1] S5120x1
  slices_S3x3_o1_0_S1x3 : S3x3.Slices ![1, 0] S1x3
  slices_S5120x3_o0_2_S5120x1 : S5120x3.Slices ![0, 2] S5120x1
  slices_S3x3_o2_0_S1x3 : S3x3.Slices ![2, 0] S1x3
  reduces_S5120x3_S5120 : S5120x3.Reduces [1] S5120
  inb_S5120_S5120_0 : ∀ a, (![0] : Fin 1 → Nat) a + S5120.size a ≤ S5120.size a
  h_S5120 : 0 < S5120.numel
  natLt_1_32 : 1 < 32
  gather_S100000x3_S3200000x1_S3200000x3_1_0_n_n_0_1_13_wf : GatherDims.WF S100000x3 S3200000x1 S3200000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x3.size a ≤ S3200000x3.size a
  hwx0_0 : ∀ i : grid0.Coords, EltTy.bits .f32 = 32 ∨ (Rect.block (s := S3200000x3) S5120x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x3.size a ≤ S3200000x3.size a
  hwx0_1 : ∀ i : grid0.Coords, EltTy.bits .f32 = 32 ∨ (Rect.block (s := S3200000x3) S5120x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x3.size a ≤ S3200000x3.size a
  hwx0_2 : ∀ i : grid0.Coords, EltTy.bits .f32 = 32 ∨ (Rect.block (s := S3200000x3) S5120x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5120x3.size a ≤ S3200000x3.size a
  hwx0_4 : ∀ i : grid0.Coords, EltTy.bits .f32 = 32 ∨ (Rect.block (s := S3200000x3) S5120x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5120.size a ≤ S3200000.size a
  hwx0_5 : ∀ i : grid0.Coords, EltTy.bits .f32 = 32 ∨ (Rect.block (s := S3200000) S5120.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5120.size a ≤ S3200000.size a
  hwx0_6 : ∀ i : grid0.Coords, EltTy.bits .f32 = 32 ∨ (Rect.block (s := S3200000) S5120.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5120.size a ≤ S3200000.size a
  hwx0_7 : ∀ i : grid0.Coords, EltTy.bits .i32 = 32 ∨ (Rect.block (s := S3200000) S5120.size (cc0_transform_7 i) (hinb0_7 i)).WholeWords (EltTy.packing .i32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf

abbrev win0_0 : Pipeline.Window sig grid0 :=
  Pipeline.Window.ofSpec (Memref.whole main_v6) S5120x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5120x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S5120x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5120x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S5120.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S5120.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_3) S5120.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x3 : Shape := ⟨2, ![100000, 3]⟩
abbrev S3200000 : Shape := ⟨1, ![3200000]⟩
abbrev S3200000x3 : Shape := ⟨2, ![3200000, 3]⟩
abbrev S1x3x3 : Shape := ⟨3, ![1, 3, 3]⟩
abbrev S_ : Shape := ⟨0, ![]⟩
abbrev S3200000x1 : Shape := ⟨2, ![3200000, 1]⟩
abbrev S3x3 : Shape := ⟨2, ![3, 3]⟩

abbrev nBuf : Space → Nat
  | .hbm => 48
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S3200000, .i32⟩
  | .hbm, ⟨2, _⟩ => ⟨S3200000, .i32⟩
  | .hbm, ⟨3, _⟩ => ⟨S3200000x3, .f32⟩
  | .hbm, ⟨4, _⟩ => ⟨S1x3x3, .f32⟩
  | .hbm, ⟨5, _⟩ => ⟨S_, .i32⟩
  | .hbm, ⟨6, _⟩ => ⟨S3200000, .i32⟩
  | .hbm, ⟨7, _⟩ => ⟨S3200000, .i1⟩
  | .hbm, ⟨8, _⟩ => ⟨S_, .i32⟩
  | .hbm, ⟨9, _⟩ => ⟨S3200000, .i32⟩
  | .hbm, ⟨10, _⟩ => ⟨S3200000, .i32⟩
  | .hbm, ⟨11, _⟩ => ⟨S3200000, .i32⟩
  | .hbm, ⟨12, _⟩ => ⟨S3200000x1, .i32⟩
  | .hbm, ⟨13, _⟩ => ⟨S3200000x3, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x3, .f32⟩
  | .hbm, ⟨23, _⟩ => ⟨S3200000x3, .f32⟩
  | .hbm, ⟨24, _⟩ => ⟨S3x3, .f32⟩
  | .hbm, ⟨25, _⟩ => ⟨S3200000x3, .f32⟩
  | .hbm, ⟨26, _⟩ => ⟨S3200000x3, .f32⟩
  | .hbm, ⟨27, _⟩ => ⟨S3200000x3, .f32⟩
  | .hbm, ⟨28, _⟩ => ⟨S_, .f32⟩
  | .hbm, ⟨29, _⟩ => ⟨S3200000, .f32⟩
  | .hbm, ⟨30, _⟩ => ⟨S3200000, .f32⟩
  | .hbm, ⟨31, _⟩ => ⟨S_, .f32⟩
  | .hbm, ⟨32, _⟩ => ⟨S3200000, .f32⟩
  | .hbm, ⟨33, _⟩ => ⟨S3200000, .i1⟩
  | .hbm, ⟨34, _⟩ => ⟨S_, .f32⟩
  | .hbm, ⟨35, _⟩ => ⟨S3200000, .f32⟩
  | .hbm, ⟨36, _⟩ => ⟨S3200000, .f32⟩
  | .hbm, ⟨37, _⟩ => ⟨S3200000, .f32⟩
  | .hbm, ⟨38, _⟩ => ⟨S_, .f32⟩
  | .hbm, ⟨39, _⟩ => ⟨S3200000, .f32⟩
  | .hbm, ⟨40, _⟩ => ⟨S3200000, .f32⟩
  | .hbm, ⟨41, _⟩ => ⟨S_, .f32⟩
  | .hbm, ⟨42, _⟩ => ⟨S3200000, .f32⟩
  | .hbm, ⟨43, _⟩ => ⟨S3200000, .f32⟩
  | .hbm, ⟨44, _⟩ => ⟨S_, .f32⟩
  | .hbm, ⟨45, _⟩ => ⟨S_, .f32⟩
  | .hbm, ⟨46, _⟩ => ⟨S3200000, .f32⟩
  | .hbm, ⟨47, _⟩ => ⟨S3200000, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v28 : Ref sig .tc := ⟨.hbm, 47, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  shapeCasts_S1x3x3_S3x3 : S1x3x3.ShapeCasts S3x3
  reducesTo_S3200000x3_S3200000_d1 : S3200000x3.ReducesTo [1] S3200000
  h_S_ : 0 < S_.numel
  gather_S100000x3_S3200000x1_S3200000x3_1_0_n_n_0_1_13_wf : GatherDims.WF S100000x3 S3200000x1 S3200000x3 [1] [0] [] [0] [] 1 ![1, 3]
  dot_S3200000x3_S3x3_S3200000x3_1_0_0_1_n_n_wf : DotDims.WF S3200000x3 S3x3 S3200000x3 [1] [0] [0] [1] [] []

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def dot_S3200000x3_S3x3_S3200000x3_1_0_0_1_n_n : DotDims S3200000x3 S3x3 S3200000x3 where
  lhsContracting := [1]
  rhsContracting := [0]
  lhsNonContracting := [0]
  rhsNonContracting := [1]
  lhsBatch := []
  rhsBatch := []
  wf := dot_S3200000x3_S3x3_S3200000x3_1_0_0_1_n_n_wf

class Facts : Prop extends Facts₀ where

variable [Facts]
-- ==== Proof.EdgeSpec.lean ====
/-
  The specification: the four per-edge results as functions of the gathered endpoint rows.

  For an edge `e` with source row `S e ·`, destination row `D e ·`, periodic-shift row `P e ·` and a 3×3 cell matrix `C`:
    • `vecAt e j    = (D e j − S e j) + ((P e 0 · C 0 j + P e 1 · C 1 j) + P e 2 · C 2 j)`   the displacement, shifted by `P · C`;
    • `distAt e     = √(Σₖ vecAt e k · vecAt e k)`                                        its Euclidean length;
    • `maskAt e     = [distAt e < 5]`                                                     the cutoff test, one bit;
    • `switchAt e   = if maskAt e then ½ · cos (distAt e · c) + ½ else 0`                  the cosine switch, `c` the float nearest π/5.
  Everything is over the extended reals; the float literals are kept as their words, the same words on both sides of the
  certificate, so their values are never needed (only the zero word's, once, on the reference's side).

  The only algebra in the certificate is here: a three-term sum over `Fin 3` is the left-nested sum of its terms, which is
  how the kernel spells the row-times-matrix product that the reference takes as one contraction. Addition on the extended
  reals is a commutative monoid, so this needs no finiteness of the inputs.
-/
import Idealize.ShloMosaic.PureOps.Ideal.Laws
import Idealize.ShloMosaic.Lib.ValueIdx

noncomputable section

namespace Cert.EdgeSpec

open Idealize.ShloMosaic Idealize.ShloMosaic.ValueIdx

variable {n : Nat}

/-- The displacement of edge `e`, coordinate `j`: destination minus source, plus the shift row times the cell matrix, the
    three products added left to right. -/
def vecAt (S D P : (⟨2, ![n, 3]⟩ : Shape).Idx → EReal) (C : (⟨2, ![3, 3]⟩ : Shape).Idx → EReal) (e : Fin n) (j : Fin 3) : EReal :=
  (D (ix2 e j) - S (ix2 e j))
    + ((P (ix2 e (0 : Fin 3)) * C (ix2 (0 : Fin 3) j) + P (ix2 e (1 : Fin 3)) * C (ix2 (1 : Fin 3) j))
        + P (ix2 e (2 : Fin 3)) * C (ix2 (2 : Fin 3) j))

/-- The length of edge `e`'s displacement. -/
def distAt (S D P : (⟨2, ![n, 3]⟩ : Shape).Idx → EReal) (C : (⟨2, ![3, 3]⟩ : Shape).Idx → EReal) (e : Fin n) : EReal :=
  Ideal.sqrt (∑ k : Fin 3, vecAt S D P C e k * vecAt S D P C e k)

/-- Whether edge `e` is inside the cutoff radius 5. -/
def maskAt (S D P : (⟨2, ![n, 3]⟩ : Shape).Idx → EReal) (C : (⟨2, ![3, 3]⟩ : Shape).Idx → EReal) (e : Fin n) : BitVec 1 :=
  Ideal.cmp .olt (distAt S D P C e) (Ideal.ofBits .f32 0x40A00000#32)

/-- The cosine switch of edge `e`: `½ cos(d · c) + ½` inside the cutoff, zero outside. -/
def switchAt (S D P : (⟨2, ![n, 3]⟩ : Shape).Idx → EReal) (C : (⟨2, ![3, 3]⟩ : Shape).Idx → EReal) (e : Fin n) : EReal :=
  Scalar.select (maskAt S D P C e)
    (Ideal.ofBits .f32 0x3F000000#32 * Ideal.cos (distAt S D P C e * Ideal.ofBits .f32 0x3F20D97C#32) + Ideal.ofBits .f32 0x3F000000#32)
    (Ideal.ofBits .f32 0x00000000#32)

/-! ## The four results as whole arrays over the 3 200 000 edges -/

/-- The displacement array. -/
def vecArr (S D P : (⟨2, ![3200000, 3]⟩ : Shape).Idx → EReal) (C : (⟨2, ![3, 3]⟩ : Shape).Idx → EReal) :
    (⟨2, ![3200000, 3]⟩ : Shape).Idx → EReal := fun i => vecAt S D P C (i 0) (i 1)

/-- The length array. -/
def distArr (S D P : (⟨2, ![3200000, 3]⟩ : Shape).Idx → EReal) (C : (⟨2, ![3, 3]⟩ : Shape).Idx → EReal) :
    (⟨1, ![3200000]⟩ : Shape).Idx → EReal := fun i => distAt S D P C (i 0)

/-- The switch array. -/
def switchArr (S D P : (⟨2, ![3200000, 3]⟩ : Shape).Idx → EReal) (C : (⟨2, ![3, 3]⟩ : Shape).Idx → EReal) :
    (⟨1, ![3200000]⟩ : Shape).Idx → EReal := fun i => switchAt S D P C (i 0)

/-- The cutoff bits. -/
def maskArr (S D P : (⟨2, ![3200000, 3]⟩ : Shape).Idx → EReal) (C : (⟨2, ![3, 3]⟩ : Shape).Idx → EReal) :
    (⟨1, ![3200000]⟩ : Shape).Idx → BitVec 1 := fun i => maskAt S D P C (i 0)

/-- The cutoff bits widened to 32-bit words: what the kernel writes. -/
def maskWordArr (S D P : (⟨2, ![3200000, 3]⟩ : Shape).Idx → EReal) (C : (⟨2, ![3, 3]⟩ : Shape).Idx → EReal) :
    (⟨1, ![3200000]⟩ : Shape).Idx → BitVec 32 := fun i => (maskAt S D P C (i 0)).setWidth 32

/-- The one law: a sum over the three coordinates is its terms added left to right. -/
theorem sum_three (f : Fin 3 → EReal) : ∑ k : Fin 3, f k = (f 0 + f 1) + f 2 := Fin.sum_univ_three f

/-- A widened one-bit word is nonzero exactly when the bit is set: the kernel stores the cutoff bit as a 32-bit word and
    the host reads it back by comparing with zero. -/
theorem ne_zero_of_zext (b : BitVec 1) : IntOp.cmpi .ne (b.setWidth 32) 0#32 = b := by
  rcases BitVec.eq_zero_or_eq_one b with h | h <;> subst h <;> decide

end Cert.EdgeSpec

end
-- ==== Proof.LibColumnBroadcast.lean ====
/-
  A column broadcast over many columns, read at an index: a `[a, 1]` array broadcast to `[a, b]` reads, at `(p, c)`, the
  operand's row `p` at its one column. (The companion of the library's row form `broadcastTo_1b_ab_apply`; extents general.)
-/
import Idealize.ShloMosaic.Lib.ValueLayout

namespace Idealize.ShloMosaic.ValueIdx

open Idealize.ShloMosaic

variable {α : Type}

/-- A `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.EdgeBody.lean ====
/-
  What the kernel body computes from one block of 5120 edges, element by element, on the extended reals.

  The body loads the source rows `x0`, the destination rows `x1`, the shift rows `x2` (each 5120 × 3) and the cell matrix
  `x3` (3 × 3). Its four stored values are, at edge `p` of the block (and coordinate `q`):
    • the displacement: `x1 − x0` plus the three column-of-`x2` times row-of-`x3` products, added left to right — `vecAt`;
    • its length: the square root of the lane sum of the squared displacement — `distAt`;
    • the cutoff bit — `maskAt` — and, separately, that bit widened to a 32-bit word;
    • the cosine switch — `switchAt`.
  Each slice of `x2` is one of its columns and each slice of `x3` one of its rows; a column broadcast along the lanes reads its
  row, a row broadcast along the sublanes reads its lane; the lane sum over the three coordinates is a sum over `Fin 3`.
-/
import proofs.«171223_j64012192579962_1_alg».proof.Proof.Gen.KernelIdeal.Skeleton
import proofs.«171223_j64012192579962_1_alg».proof.Proof.EdgeSpec
import proofs.«171223_j64012192579962_1_alg».proof.Proof.LibColumnBroadcast
import Idealize.ShloMosaic.Lib.ValueLayout
import Idealize.ShloMosaic.PureOps.Ideal.Laws

noncomputable section

namespace Cert.KernelIdeal.EdgeBody

open Idealize.ShloMosaic Idealize.ShloMosaic.ValueIdx Cert.KernelIdeal Cert.KernelIdeal.Gen Cert.EdgeSpec

/-- The stored displacement at edge `p`, coordinate `q`, is `vecAt` of the four loaded blocks. -/
theorem vec_payload (x0 x1 x2 : Vec Ideal S5120x3 .f32) (x3 : Vec Ideal S3x3 .f32) (p : Fin 5120) (q : Fin 3) :
    k0_pay2 (F := Ideal) x0 x1 x2 x3 (ix2 p q) = vecAt x0 x1 x2 x3 p q := by
  unfold k0_pay2 vecAt
  simp only [shapeCast_self, addf_apply, subf_apply, mulf_apply, broadcastTo_a1_ab_apply, broadcastTo_1b_ab_apply]
  rw [slice2_axis1_apply 0 x2 _ p (0 : Fin 1) (0 : Fin 3) rfl, slice2_axis1_apply 1 x2 _ p (0 : Fin 1) (1 : Fin 3) rfl,
    slice2_axis1_apply 2 x2 _ p (0 : Fin 1) (2 : Fin 3) rfl, slice2_axis0_apply 0 x3 _ (0 : Fin 1) q (0 : Fin 3) rfl,
    slice2_axis0_apply 1 x3 _ (0 : Fin 1) q (1 : Fin 3) rfl, slice2_axis0_apply 2 x3 _ (0 : Fin 1) q (2 : Fin 3) rfl]

/-- The stored length at edge `p` is `distAt`: the lane sum of the squares is the sum over the three coordinates. -/
theorem dist_payload (x0 x1 x2 : Vec Ideal S5120x3 .f32) (x3 : Vec Ideal S3x3 .f32) (p : Fin 5120) :
    k0_pay3 (F := Ideal) x0 x1 x2 x3 (ix1 p) = distAt x0 x1 x2 x3 p := by
  unfold k0_pay3 distAt
  refine congrArg Ideal.sqrt ?_
  refine (Ideal.multiReduction_add_single (mulf (k0_pay2 (F := Ideal) x0 x1 x2 x3) (k0_pay2 (F := Ideal) x0 x1 x2 x3)) 0x00000000#32
    reduces_S5120x3_S5120 (.inl rfl) rfl (ix1 p)).trans ?_
  show ∑ k : Fin 3, mulf (k0_pay2 (F := Ideal) x0 x1 x2 x3) (k0_pay2 (F := Ideal) x0 x1 x2 x3) (reduces_S5120x3_S5120.lift (ix1 p) k)
      = ∑ k : Fin 3, vecAt x0 x1 x2 x3 p k * vecAt x0 x1 x2 x3 p k
  refine Finset.sum_congr rfl fun k _ => ?_
  have hl : reduces_S5120x3_S5120.lift (ix1 p) k = ix2 p k :=
    funext fun a => by match a with | ⟨0, _⟩ => rfl | ⟨1, _⟩ => rfl
  rw [hl, mulf_apply, vec_payload]

/-- The cutoff bit at edge `p` is `maskAt`. -/
theorem mask_payload (x0 x1 x2 : Vec Ideal S5120x3 .f32) (x3 : Vec Ideal S3x3 .f32) (p : Fin 5120) :
    k0_pay4 (F := Ideal) x0 x1 x2 x3 (ix1 p) = maskAt x0 x1 x2 x3 p := by
  unfold k0_pay4 maskAt
  show Ideal.cmp .olt (k0_pay3 (F := Ideal) x0 x1 x2 x3 (ix1 p)) (Ideal.ofBits .f32 0x40A00000#32) = _
  rw [dist_payload]

/-- The stored switch at edge `p` is `switchAt`. -/
theorem switch_payload (x0 x1 x2 : Vec Ideal S5120x3 .f32) (x3 : Vec Ideal S3x3 .f32) (p : Fin 5120) :
    k0_pay5 (F := Ideal) x0 x1 x2 x3 (ix1 p) = switchAt x0 x1 x2 x3 p := by
  unfold k0_pay5 switchAt
  show Scalar.select (k0_pay4 (F := Ideal) x0 x1 x2 x3 (ix1 p))
      (Ideal.ofBits .f32 0x3F000000#32 * Ideal.cos (k0_pay3 (F := Ideal) x0 x1 x2 x3 (ix1 p) * Ideal.ofBits .f32 0x3F20D97C#32)
        + Ideal.ofBits .f32 0x3F000000#32)
      (Ideal.ofBits .f32 0x00000000#32) = _
  rw [mask_payload, dist_payload]

/-- The stored mask word at edge `p` is the cutoff bit widened to 32 bits. -/
theorem maskword_payload (x0 x1 x2 : Vec Ideal S5120x3 .f32) (x3 : Vec Ideal S3x3 .f32) (p : Fin 5120) :
    k0_pay1 (k0_pay4 (F := Ideal) x0 x1 x2 x3) (ix1 p) = (maskAt x0 x1 x2 x3 p).setWidth 32 := by
  unfold k0_pay1
  show (k0_pay4 (F := Ideal) x0 x1 x2 x3 (ix1 p)).setWidth 32 = _
  rw [mask_payload]

end Cert.KernelIdeal.EdgeBody

end
-- ==== Proof.EdgeBlocks.lean ====
/-
  Block `t` of every window is rows `5120·t … 5120·t + 5119` of its array.

  The grid has 625 points; at point `t` the three 5120 × 3 input windows, the 5120 × 3 output window and the three
  5120-long output windows all sit at block index `t` (and column block 0), and the 3 × 3 cell window at block (0, 0) at
  every point. So element `p` of a block at point `t` is element `e = 5120·t + p` of the array, and the per-edge functions of
  the four input blocks at `p` are the same functions of the four input arrays at `e`.
-/
import proofs.«171223_j64012192579962_1_alg».proof.Proof.Gen.KernelIdeal.Frame
import proofs.«171223_j64012192579962_1_alg».proof.Proof.EdgeBody
import Idealize.ShloMosaic.Lib.Pipeline.Value

set_option maxRecDepth 16384

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeSpec Cert.KernelIdeal.EdgeBody

variable (m : (ℓ : Loc nD τ sig) → Buf (Elt Ideal) ℓ)

/-- The windows' block indices at point `t`, decided over the 625 points: `t` along the edges, 0 along the coordinates, and
    (0, 0) for the cell matrix. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 1) = t.val ∧ win0_6.index t (0 : Fin 1) = t.val ∧ win0_7.index t (0 : Fin 1) = t.val :=
  (by decide +kernel : ∀ t : Fin grid0.N, _)

/-- A grid point is below 625. -/
theorem t_lt (t : Fin cfg0.N) : t.val < 625 := lt_of_lt_of_eq t.isLt N_0

/-- The array row under row `p` of block `t`. -/
theorem row_exists (t : Fin cfg0.N) (p : Fin 5120) : ∃ e : Fin 3200000, e.val = t.val * 5120 + p.val :=
  ⟨⟨t.val * 5120 + p.val, by have := t_lt t; have := p.isLt; omega⟩, rfl⟩

/-! ## The input blocks read at an element -/

/-- The source-row block at `(p, q)` is the source-row array at `(e, q)`. -/
theorem read0 (c : Dev nD) (t : Fin cfg0.N) (p : Fin 5120) (q : Fin 3) (e : Fin 3200000) (he : e.val = t.val * 5120 + p.val) :
    iblk m c 0 t (ix2 p q) = V m c main_v6 (ix2 e q) := by
  show V m c main_v6 (((cfg0.win 0).blk t).view.emb (ix2 p q)) = V m c main_v6 (ix2 e q)
  refine congrArg (V m c main_v6) (funext fun a => Fin.ext ?_)
  obtain ⟨e0, e1, -⟩ := idx_facts t
  match a with
  | ⟨0, _⟩ => show win0_0.index t (0 : Fin 2) * 5120 + 1 * p.val = e.val; omega
  | ⟨1, _⟩ => show win0_0.index t (1 : Fin 2) * 3 + 1 * q.val = q.val; omega

/-- The destination-row block at `(p, q)` is the destination-row array at `(e, q)`. -/
theorem read1 (c : Dev nD) (t : Fin cfg0.N) (p : Fin 5120) (q : Fin 3) (e : Fin 3200000) (he : e.val = t.val * 5120 + p.val) :
    iblk m c 1 t (ix2 p q) = V m c main_v13 (ix2 e q) := by
  show V m c main_v13 (((cfg0.win 1).blk t).view.emb (ix2 p q)) = V m c main_v13 (ix2 e q)
  refine congrArg (V m c main_v13) (funext fun a => Fin.ext ?_)
  obtain ⟨-, -, e0, e1, -⟩ := idx_facts t
  match a with
  | ⟨0, _⟩ => show win0_1.index t (0 : Fin 2) * 5120 + 1 * p.val = e.val; omega
  | ⟨1, _⟩ => show win0_1.index t (1 : Fin 2) * 3 + 1 * q.val = q.val; omega

/-- The shift-row block at `(p, q)` is the shift-row array at `(e, q)`. -/
theorem read2 (c : Dev nD) (t : Fin cfg0.N) (p : Fin 5120) (q : Fin 3) (e : Fin 3200000) (he : e.val = t.val * 5120 + p.val) :
    iblk m c 2 t (ix2 p q) = V m c main_arg3 (ix2 e q) := by
  show V m c main_arg3 (((cfg0.win 2).blk t).view.emb (ix2 p q)) = V m c main_arg3 (ix2 e q)
  refine congrArg (V m c main_arg3) (funext fun a => Fin.ext ?_)
  obtain ⟨-, -, -, -, e0, e1, -⟩ := idx_facts t
  match a with
  | ⟨0, _⟩ => show win0_2.index t (0 : Fin 2) * 5120 + 1 * p.val = e.val; omega
  | ⟨1, _⟩ => show win0_2.index t (1 : Fin 2) * 3 + 1 * q.val = q.val; omega

/-- The cell block is the whole cell matrix at every point. -/
theorem read3 (c : Dev nD) (t : Fin cfg0.N) (a b : Fin 3) :
    iblk m c 3 t (ix2 a b) = V m c main_v14 (ix2 a b) := by
  show V m c main_v14 (((cfg0.win 3).blk t).view.emb (ix2 a b)) = V m c main_v14 (ix2 a b)
  refine congrArg (V m c main_v14) (funext fun ax => Fin.ext ?_)
  obtain ⟨-, -, -, -, -, -, e0, e1, -⟩ := idx_facts t
  match ax with
  | ⟨0, _⟩ => show win0_3.index t (0 : Fin 2) * 3 + 1 * a.val = a.val; omega
  | ⟨1, _⟩ => show win0_3.index t (1 : Fin 2) * 3 + 1 * b.val = b.val; omega

/-! ## Where an output block's element sits in its array -/

theorem emb4 (t : Fin cfg0.N) (p : Fin 5120) (q : Fin 3) (e : Fin 3200000) (he : e.val = t.val * 5120 + p.val) :
    ((cfg0.win 4).blk t).view.emb (ix2 p q) = ix2 e q := by
  refine funext fun a => Fin.ext ?_
  obtain ⟨-, -, -, -, -, -, -, -, e0, e1, -⟩ := idx_facts t
  match a with
  | ⟨0, _⟩ => show win0_4.index t (0 : Fin 2) * 5120 + 1 * p.val = e.val; omega
  | ⟨1, _⟩ => show win0_4.index t (1 : Fin 2) * 3 + 1 * q.val = q.val; omega

theorem emb5 (t : Fin cfg0.N) (p : Fin 5120) (e : Fin 3200000) (he : e.val = t.val * 5120 + p.val) :
    ((cfg0.win 5).blk t).view.emb (ix1 p) = ix1 e := by
  refine funext fun a => Fin.ext ?_
  obtain ⟨-, -, -, -, -, -, -, -, -, -, e0, -⟩ := idx_facts t
  match a with
  | ⟨0, _⟩ => show win0_5.index t (0 : Fin 1) * 5120 + 1 * p.val = e.val; omega

theorem emb6 (t : Fin cfg0.N) (p : Fin 5120) (e : Fin 3200000) (he : e.val = t.val * 5120 + p.val) :
    ((cfg0.win 6).blk t).view.emb (ix1 p) = ix1 e := by
  refine funext fun a => Fin.ext ?_
  obtain ⟨-, -, -, -, -, -, -, -, -, -, -, e0, -⟩ := idx_facts t
  match a with
  | ⟨0, _⟩ => show win0_6.index t (0 : Fin 1) * 5120 + 1 * p.val = e.val; omega

theorem emb7 (t : Fin cfg0.N) (p : Fin 5120) (e : Fin 3200000) (he : e.val = t.val * 5120 + p.val) :
    ((cfg0.win 7).blk t).view.emb (ix1 p) = ix1 e := by
  refine funext fun a => Fin.ext ?_
  obtain ⟨-, -, -, -, -, -, -, -, -, -, -, -, e0⟩ := idx_facts t
  match a with
  | ⟨0, _⟩ => show win0_7.index t (0 : Fin 1) * 5120 + 1 * p.val = e.val; omega

/-! ## The per-edge functions of the blocks are those of the arrays -/

theorem vec_blocks (c : Dev nD) (t : Fin cfg0.N) (p : Fin 5120) (q : Fin 3) (e : Fin 3200000) (he : e.val = t.val * 5120 + p.val) :
    vecAt (n := 5120) (iblk m c 0 t) (iblk m c 1 t) (iblk m c 2 t) (iblk m c 3 t) p q
      = vecAt (n := 3200000) (V m c main_v6) (V m c main_v13) (V m c main_arg3) (V m c main_v14) e q := by
  unfold vecAt
  rw [read0 m c t p q e he, read1 m c t p q e he, read2 m c t p 0 e he, read2 m c t p 1 e he, read2 m c t p 2 e he,
    read3 m c t 0 q, read3 m c t 1 q, read3 m c t 2 q]

theorem dist_blocks (c : Dev nD) (t : Fin cfg0.N) (p : Fin 5120) (e : Fin 3200000) (he : e.val = t.val * 5120 + p.val) :
    distAt (n := 5120) (iblk m c 0 t) (iblk m c 1 t) (iblk m c 2 t) (iblk m c 3 t) p
      = distAt (n := 3200000) (V m c main_v6) (V m c main_v13) (V m c main_arg3) (V m c main_v14) e := by
  unfold distAt
  exact congrArg Ideal.sqrt (Finset.sum_congr rfl fun k _ => by rw [vec_blocks m c t p k e he])

theorem mask_blocks (c : Dev nD) (t : Fin cfg0.N) (p : Fin 5120) (e : Fin 3200000) (he : e.val = t.val * 5120 + p.val) :
    maskAt (n := 5120) (iblk m c 0 t) (iblk m c 1 t) (iblk m c 2 t) (iblk m c 3 t) p
      = maskAt (n := 3200000) (V m c main_v6) (V m c main_v13) (V m c main_arg3) (V m c main_v14) e := by
  unfold maskAt
  rw [dist_blocks m c t p e he]

theorem switch_blocks (c : Dev nD) (t : Fin cfg0.N) (p : Fin 5120) (e : Fin 3200000) (he : e.val = t.val * 5120 + p.val) :
    switchAt (n := 5120) (iblk m c 0 t) (iblk m c 1 t) (iblk m c 2 t) (iblk m c 3 t) p
      = switchAt (n := 3200000) (V m c main_v6) (V m c main_v13) (V m c main_arg3) (V m c main_v14) e := by
  unfold switchAt
  rw [mask_blocks m c t p e he, dist_blocks m c t p e he]

end Cert.KernelIdeal.EdgeValue

end
-- ==== Proof.EdgeArrays.lean ====
/-
  The four output arrays after the run.

  What point `t` writes back into an output window is block `t` of one whole-array function of the input arrays as the
  region finds them: the body's stored value at `p` is the per-edge function of the input blocks at `p`, and that is the
  per-edge function of the input arrays at edge `5120·t + p`, which is where the output block's element `p` sits. The 625
  blocks tile the 3 200 000 edges — edge `i` lies in block `i / 5120` — so each output array ends holding that function
  everywhere.
-/
import proofs.«171223_j64012192579962_1_alg».proof.Proof.EdgeBlocks

set_option maxRecDepth 16384

noncomputable section

namespace Cert.KernelIdeal.EdgeValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.EdgeSpec Cert.KernelIdeal.EdgeBody

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-! ## What a point writes back -/

/-- Point `t` writes back block `t` of the displacement array. -/
theorem flushed_vec (c : Dev nD) (t : Fin cfg0.N) :
    (dats m 0 c).flushed 4 t = ((cfg0.win 4).blk t).view.read (Elt Ideal)
      (vecArr (V m c main_v6) (V m c main_v13) (V m c main_arg3) (V m c main_v14)) := by
  show (cfg0.win 4).cut (grid0.coords t) ((dats m 0 c).after 4 t) = _
  rw [after0_4]
  unfold out0_4
  rw [View.canon_unit_zero zero2]
  simp only [View.ld_unit_zero (S := S5120x3) zero2, View.ld_unit_zero (S := S3x3) zero2]
  funext j
  obtain ⟨p, q, rfl⟩ : ∃ (p : Fin 5120) (q : Fin 3), j = ix2 p q := ⟨j 0, j 1, eq_ix2 j⟩
  obtain ⟨e, he⟩ := row_exists t p
  show k0_pay2 (F := Ideal) (iblk m c 0 t) (iblk m c 1 t) (iblk m c 2 t) (iblk m c 3 t) (ix2 p q)
      = vecArr (V m c main_v6) (V m c main_v13) (V m c main_arg3) (V m c main_v14) (((cfg0.win 4).blk t).view.emb (ix2 p q))
  rw [emb4 t p q e he]
  refine (vec_payload (iblk m c 0 t) (iblk m c 1 t) (iblk m c 2 t) (iblk m c 3 t) p q).trans ?_
  exact vec_blocks m c t p q e he

/-- Point `t` writes back block `t` of the length array. -/
theorem flushed_dist (c : Dev nD) (t : Fin cfg0.N) :
    (dats m 0 c).flushed 5 t = ((cfg0.win 5).blk t).view.read (Elt Ideal)
      (distArr (V m c main_v6) (V m c main_v13) (V m c main_arg3) (V m c main_v14)) := by
  show (cfg0.win 5).cut (grid0.coords t) ((dats m 0 c).after 5 t) = _
  rw [after0_5]
  unfold out0_5
  rw [View.canon_unit_zero zero1]
  simp only [View.ld_unit_zero (S := S5120x3) zero2, View.ld_unit_zero (S := S3x3) zero2]
  funext j
  obtain ⟨p, rfl⟩ : ∃ p : Fin 5120, j = ix1 p := ⟨j 0, eq_ix1 j⟩
  obtain ⟨e, he⟩ := row_exists t p
  show k0_pay3 (F := Ideal) (iblk m c 0 t) (iblk m c 1 t) (iblk m c 2 t) (iblk m c 3 t) (ix1 p)
      = distArr (V m c main_v6) (V m c main_v13) (V m c main_arg3) (V m c main_v14) (((cfg0.win 5).blk t).view.emb (ix1 p))
  rw [emb5 t p e he]
  refine (dist_payload (iblk m c 0 t) (iblk m c 1 t) (iblk m c 2 t) (iblk m c 3 t) p).trans ?_
  exact dist_blocks m c t p e he

/-- Point `t` writes back block `t` of the switch array. -/
theorem flushed_switch (c : Dev nD) (t : Fin cfg0.N) :
    (dats m 0 c).flushed 6 t = ((cfg0.win 6).blk t).view.read (Elt Ideal)
      (switchArr (V m c main_v6) (V m c main_v13) (V m c main_arg3) (V m c main_v14)) := by
  show (cfg0.win 6).cut (grid0.coords t) ((dats m 0 c).after 6 t) = _
  rw [after0_6]
  unfold out0_6
  rw [View.canon_unit_zero zero1]
  simp only [View.ld_unit_zero (S := S5120x3) zero2, View.ld_unit_zero (S := S3x3) zero2]
  funext j
  obtain ⟨p, rfl⟩ : ∃ p : Fin 5120, j = ix1 p := ⟨j 0, eq_ix1 j⟩
  obtain ⟨e, he⟩ := row_exists t p
  show k0_pay5 (F := Ideal) (iblk m c 0 t) (iblk m c 1 t) (iblk m c 2 t) (iblk m c 3 t) (ix1 p)
      = switchArr (V m c main_v6) (V m c main_v13) (V m c main_arg3) (V m c main_v14) (((cfg0.win 6).blk t).view.emb (ix1 p))
  rw [emb6 t p e he]
  refine (switch_payload (iblk m c 0 t) (iblk m c 1 t) (iblk m c 2 t) (iblk m c 3 t) p).trans ?_
  exact switch_blocks m c t p e he

/-- Point `t` writes back block `t` of the array of widened cutoff bits. -/
theorem flushed_maskword (c : Dev nD) (t : Fin cfg0.N) :
    (dats m 0 c).flushed 7 t = ((cfg0.win 7).blk t).view.read (Elt Ideal)
      (maskWordArr (V m c main_v6) (V m c main_v13) (V m c main_arg3) (V m c main_v14)) := by
  show (cfg0.win 7).cut (grid0.coords t) ((dats m 0 c).after 7 t) = _
  rw [after0_7]
  unfold out0_7
  rw [View.canon_unit_zero zero1]
  simp only [View.ld_unit_zero (S := S5120x3) zero2, View.ld_unit_zero (S := S3x3) zero2]
  funext j
  obtain ⟨p, rfl⟩ : ∃ p : Fin 5120, j = ix1 p := ⟨j 0, eq_ix1 j⟩
  obtain ⟨e, he⟩ := row_exists t p
  show k0_pay1 (k0_pay4 (F := Ideal) (iblk m c 0 t) (iblk m c 1 t) (iblk m c 2 t) (iblk m c 3 t)) (ix1 p)
      = maskWordArr (V m c main_v6) (V m c main_v13) (V m c main_arg3) (V m c main_v14) (((cfg0.win 7).blk t).view.emb (ix1 p))
  rw [emb7 t p e he]
  refine (maskword_payload (iblk m c 0 t) (iblk m c 1 t) (iblk m c 2 t) (iblk m c 3 t) p).trans ?_
  exact congrArg (fun b : BitVec 1 => b.setWidth 32) (mask_blocks m c t p e he)

/-! ## The blocks tile the edges -/

/-- An index is in point `t`'s block of the displacement array iff each coordinate is in the block's range. -/
theorem mem_blk4 (t : Fin cfg0.N) (i : S3200000x3.Idx) :
    i ∈ ((cfg0.win 4).blk t).view.set ↔ ∀ a : Fin 2, win0_4.index t a * S5120x3.size a ≤ (i a).val ∧ (i a).val < win0_4.index t a * S5120x3.size a + S5120x3.size a := by
  show i ∈ ((View.whole main_v15_0).slice (win0_4.rect t)).set ↔ _
  rw [View.set_slice_whole, Rect.mem_set_unit]
  exact Iff.rfl
theorem mem_blk5 (t : Fin cfg0.N) (i : S3200000.Idx) :
    i ∈ ((cfg0.win 5).blk t).view.set ↔ ∀ a : Fin 1, win0_5.index t a * S5120.size a ≤ (i a).val ∧ (i a).val < win0_5.index t a * S5120.size a + S5120.size a := by
  show i ∈ ((View.whole main_v15_1).slice (win0_5.rect t)).set ↔ _
  rw [View.set_slice_whole, Rect.mem_set_unit]
  exact Iff.rfl
theorem mem_blk6 (t : Fin cfg0.N) (i : S3200000.Idx) :
    i ∈ ((cfg0.win 6).blk t).view.set ↔ ∀ a : Fin 1, win0_6.index t a * S5120.size a ≤ (i a).val ∧ (i a).val < win0_6.index t a * S5120.size a + S5120.size a := by
  show i ∈ ((View.whole main_v15_2).slice (win0_6.rect t)).set ↔ _
  rw [View.set_slice_whole, Rect.mem_set_unit]
  exact Iff.rfl
theorem mem_blk7 (t : Fin cfg0.N) (i : S3200000.Idx) :
    i ∈ ((cfg0.win 7).blk t).view.set ↔ ∀ a : Fin 1, win0_7.index t a * S5120.size a ≤ (i a).val ∧ (i a).val < win0_7.index t a * S5120.size a + S5120.size a := by
  show i ∈ ((View.whole main_v15_3).slice (win0_7.rect t)).set ↔ _
  rw [View.set_slice_whole, Rect.mem_set_unit]
  exact Iff.rfl

/-- The point whose block holds edge `r`. -/
theorem point_exists (r : Nat) (hr : r < 3200000) : ∃ t : Fin cfg0.N, t.val = r / 5120 :=
  ⟨⟨r / 5120, lt_of_lt_of_eq (by omega) N_0.symm⟩, rfl⟩

theorem cover4 (i : S3200000x3.Idx) : ∃ t : Fin cfg0.N, (cfg0.win 4).flush t = true ∧ i ∈ ((cfg0.win 4).blk t).view.set := by
  have hi0 : (i 0).val < 3200000 := (i 0).isLt
  have hi1 : (i 1).val < 3 := (i 1).isLt
  obtain ⟨t, ht⟩ := point_exists (i 0).val hi0
  refine ⟨t, flush0_4 t, ?_⟩
  rw [mem_blk4]
  obtain ⟨-, -, -, -, -, -, -, -, e0, e1, -⟩ := idx_facts t
  intro a
  match a with
  | ⟨0, _⟩ => show win0_4.index t (0 : Fin 2) * 5120 ≤ (i 0).val ∧ (i 0).val < win0_4.index t (0 : Fin 2) * 5120 + 5120; omega
  | ⟨1, _⟩ => show win0_4.index t (1 : Fin 2) * 3 ≤ (i 1).val ∧ (i 1).val < win0_4.index t (1 : Fin 2) * 3 + 3; omega

theorem cover5 (i : S3200000.Idx) : ∃ t : Fin cfg0.N, (cfg0.win 5).flush t = true ∧ i ∈ ((cfg0.win 5).blk t).view.set := by
  have hi0 : (i 0).val < 3200000 := (i 0).isLt
  obtain ⟨t, ht⟩ := point_exists (i 0).val hi0
  refine ⟨t, flush0_5 t, ?_⟩
  rw [mem_blk5]
  obtain ⟨-, -, -, -, -, -, -, -, -, -, e0, -⟩ := idx_facts t
  intro a
  match a with
  | ⟨0, _⟩ => show win0_5.index t (0 : Fin 1) * 5120 ≤ (i 0).val ∧ (i 0).val < win0_5.index t (0 : Fin 1) * 5120 + 5120; omega

theorem cover6 (i : S3200000.Idx) : ∃ t : Fin cfg0.N, (cfg0.win 6).flush t = true ∧ i ∈ ((cfg0.win 6).blk t).view.set := by
  have hi0 : (i 0).val < 3200000 := (i 0).isLt
  obtain ⟨t, ht⟩ := point_exists (i 0).val hi0
  refine ⟨t, flush0_6 t, ?_⟩
  rw [mem_blk6]
  obtain ⟨-, -, -, -, -, -, -, -, -, -, -, e0, -⟩ := idx_facts t
  intro a
  match a with
  | ⟨0, _⟩ => show win0_6.index t (0 : Fin 1) * 5120 ≤ (i 0).val ∧ (i 0).val < win0_6.index t (0 : Fin 1) * 5120 + 5120; omega

theorem cover7 (i : S3200000.Idx) : ∃ t : Fin cfg0.N, (cfg0.win 7).flush t = true ∧ i ∈ ((cfg0.win 7).blk t).view.set := by
  have hi0 : (i 0).val < 3200000 := (i 0).isLt
  obtain ⟨t, ht⟩ := point_exists (i 0).val hi0
  refine ⟨t, flush0_7 t, ?_⟩
  rw [mem_blk7]
  obtain ⟨-, -, -, -, -, -, -, -, -, -, -, -, e0⟩ := idx_facts t
  intro a
  match a with
  | ⟨0, _⟩ => show win0_7.index t (0 : Fin 1) * 5120 ≤ (i 0).val ∧ (i 0).val < win0_7.index t (0 : Fin 1) * 5120 + 5120; omega

/-! ## The arrays after the run -/

theorem final_vec (c : Dev nD) : (dats m 0 c).arrAt 4 cfg0.N
    = vecArr (V m c main_v6) (V m c main_v13) (V m c main_arg3) (V m c main_v14) :=
  (dats m 0 c).arrAt_eq_of_cover 4 _ (fun t _ => flushed_vec m c t) (fun i => cover4 i)

theorem final_dist (c : Dev nD) : (dats m 0 c).arrAt 5 cfg0.N
    = distArr (V m c main_v6) (V m c main_v13) (V m c main_arg3) (V m c main_v14) :=
  (dats m 0 c).arrAt_eq_of_cover 5 _ (fun t _ => flushed_dist m c t) (fun i => cover5 i)

theorem final_switch (c : Dev nD) : (dats m 0 c).arrAt 6 cfg0.N
    = switchArr (V m c main_v6) (V m c main_v13) (V m c main_arg3) (V m c main_v14) :=
  (dats m 0 c).arrAt_eq_of_cover 6 _ (fun t _ => flushed_switch m c t) (fun i => cover6 i)

theorem final_maskword (c : Dev nD) : (dats m 0 c).arrAt 7 cfg0.N
    = maskWordArr (V m c main_v6) (V m c main_v13) (V m c main_arg3) (V m c main_v14) :=
  (dats m 0 c).arrAt_eq_of_cover 7 _ (fun t _ => flushed_maskword m c t) (fun i => cover7 i)

end Cert.KernelIdeal.EdgeValue

end
-- ==== Proof.EdgeRun.lean ====
/-
  The kernel program's run, read: every execution ends with the displacement, length and switch arrays at the
  specification's functions of the input arrays as the region finds them, with the fourth result — the host's comparison of
  the stored 32-bit mask words with zero — at the cutoff bits themselves (a widened bit is nonzero exactly when it is set),
  and with the five argument arrays unchanged.
-/
import proofs.«171223_j64012192579962_1_alg».proof.Proof.EdgeArrays
import Idealize.ShloMosaic.Lib.StableHlo.Run

set_option maxRecDepth 16384

noncomputable section

namespace Cert.KernelIdeal.EdgeValue

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.EdgeSpec Cert.KernelIdeal.EdgeBody

variable (m : (ℓ : Loc nD τ sig) → Buf (Elt Ideal) ℓ) (ρ : Dev nD → PrngReg)

/-- After the region the host compares the array of mask words with zero: the result is the array of cutoff bits. -/
theorem tail_mask (c : Dev nD) :
    Pipeline.afterTail₀ cfgs (dats m) 0 (V0 m) [hostOps1] c main_v18
      = maskArr (V m c main_v6) (V m c main_v13) (V m c main_arg3) (V m c main_v14) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v15_3)
      = maskWordArr (V m c main_v6) (V m c main_v13) (V m c main_arg3) (V m c main_v14) :=
    (Pipeline.withArrays_arr spec0 launch0.win.arr_inj c (V0 m c) _ 7).trans (final_maskword m c)
  rw [hw]
  funext i
  exact ne_zero_of_zext _

/-- The frame run re-posted: each result at its function of the input arrays, the arguments unchanged. -/
theorem run : θ_run defs (onTc (τ := τ) (main (F := Ideal))) ⟨m, fun _ => 0, ρ⟩ fun r => ∀ c : Dev nD,
      r.2.mem ((c.tc : Thread nD τ).loc main_v15_0) = vecArr (V m c main_v6) (V m c main_v13) (V m c main_arg3) (V m c main_v14)
      ∧ r.2.mem ((c.tc : Thread nD τ).loc main_v15_1) = distArr (V m c main_v6) (V m c main_v13) (V m c main_arg3) (V m c main_v14)
      ∧ r.2.mem ((c.tc : Thread nD τ).loc main_v15_2) = switchArr (V m c main_v6) (V m c main_v13) (V m c main_arg3) (V m c main_v14)
      ∧ r.2.mem ((c.tc : Thread nD τ).loc main_v18) = maskArr (V m c main_v6) (V m c main_v13) (V m c main_arg3) (V m c main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 4).trans (final_vec m c), ((h c).1 5).trans (final_dist m c),
      ((h c).1 6).trans (final_switch m c),
      ((h c).2 main_v18 (Pipeline.mem_restRefs_of main_v18 (by decide) (by decide))).trans (tail_mask m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c))⟩)
    (run_main m ρ)

end Cert.KernelIdeal.EdgeValue

end
-- ==== Proof.EdgeReference.lean ====
/-
  The reference computes the specification.

  Read one operation at a time, the reference's displacement at `(e, j)` is `(D e j − S e j) + Σₖ P e k · C k j` with `S`, `D`
  the rows it gathers at the edges' sources and destinations and `C` the cell matrix reshaped to 3 × 3; the contraction's sum
  over `Fin 3` is its three terms added left to right (`sum_three`), which is `vecAt`. Its norm is the square root of zero
  plus the sum over the three coordinates of the squared displacement, which is `distAt`; the comparison with 5 and the
  select over `½ cos(d · c) + ½` and 0 are `maskAt` and `switchAt` word for word.
-/
import proofs.«171223_j64012192579962_1_alg».proof.Proof.Gen.ReferenceIdeal.Read
import proofs.«171223_j64012192579962_1_alg».proof.Proof.EdgeSpec

noncomputable section

namespace Cert.ReferenceIdeal.EdgeRef

open Idealize.ShloMosaic Idealize.ShloMosaic.ValueIdx Cert.ReferenceIdeal Cert.ReferenceIdeal.Read Cert.EdgeSpec

variable (x0 : (⟨S100000x3, .f32⟩ : BufTy).Contents (Elt Ideal)) (x1 x2 : (⟨S3200000, .i32⟩ : BufTy).Contents (Elt Ideal))
  (x3 : (⟨S3200000x3, .f32⟩ : BufTy).Contents (Elt Ideal)) (x4 : (⟨S1x3x3, .f32⟩ : BufTy).Contents (Elt Ideal))

/-- The contraction reads the shift row at `(e, k)` … -/
theorem lidx_eq (e : Fin 3200000) (j k : Fin 3) : lidx_main_v16 (ix2 e j) k = ix2 e k :=
  funext fun a => Fin.ext (by match a with | ⟨0, _⟩ => rfl | ⟨1, _⟩ => rfl)
/-- … and the cell matrix at `(k, j)`. -/
theorem ridx_eq (e : Fin 3200000) (j k : Fin 3) : ridx_main_v16 (ix2 e j) k = ix2 k j :=
  funext fun a => Fin.ext (by match a with | ⟨0, _⟩ => rfl | ⟨1, _⟩ => rfl)
/-- The norm's sum reads the squared displacement at `(e, k)`. -/
theorem nidx_eq (e : Fin 3200000) (k : Fin 3) : idx_main_call0_v1 (ix1 e) k = ix2 e k :=
  funext fun a => Fin.ext (by match a with | ⟨0, _⟩ => rfl | ⟨1, _⟩ => rfl)

/-- The reference's displacement at `(e, j)`. -/
theorem vec_ref (e : Fin 3200000) (j : Fin 3) :
    val_main_v17 (F := Ideal) x0 x1 x2 x3 x4 (ix2 e j)
      = vecAt (n := 3200000) (val_main_v13 (F := Ideal) x0 x1) (val_main_v6 (F := Ideal) x0 x2) x3 (val_main_v15 (F := Ideal) x4) e j := by
  rw [val_main_v17_apply, val_main_v14_apply, val_main_v16_apply, sum_three]
  simp only [lidx_eq, ridx_eq]
  rfl

/-- The reference's length at `e`. -/
theorem dist_ref (e : Fin 3200000) :
    val_main_v18 (F := Ideal) x0 x1 x2 x3 x4 (ix1 e)
      = distAt (n := 3200000) (val_main_v13 (F := Ideal) x0 x1) (val_main_v6 (F := Ideal) x0 x2) x3 (val_main_v15 (F := Ideal) x4) e := by
  rw [val_main_v18_apply, val_main_call0_v1_apply, val_main_call0_cst_apply]
  unfold distAt
  show Ideal.sqrt (Ideal.ofBits .f32 0x00000000#32 + _) = _
  rw [Ideal.ofBits_zero_f32, zero_add]
  refine congrArg Ideal.sqrt (Finset.sum_congr rfl fun k _ => ?_)
  rw [nidx_eq, val_main_call0_v0_apply, vec_ref]
  rfl

/-- The reference's cutoff bit at `e`. -/
theorem mask_ref (e : Fin 3200000) :
    val_main_v20 (F := Ideal) x0 x1 x2 x3 x4 (ix1 e)
      = maskAt (n := 3200000) (val_main_v13 (F := Ideal) x0 x1) (val_main_v6 (F := Ideal) x0 x2) x3 (val_main_v15 (F := Ideal) x4) e := by
  rw [val_main_v20_apply, dist_ref, val_main_v19_apply, val_main_cst_apply]
  rfl

/-- The reference's switch at `e`. -/
theorem switch_ref (e : Fin 3200000) :
    val_main_v28 (F := Ideal) x0 x1 x2 x3 x4 (ix1 e)
      = switchAt (n := 3200000) (val_main_v13 (F := Ideal) x0 x1) (val_main_v6 (F := Ideal) x0 x2) x3 (val_main_v15 (F := Ideal) x4) e := by
  rw [val_main_v28_apply, mask_ref, val_main_v27_apply, val_main_v25_apply, val_main_v24_apply, val_main_cst_4_apply,
    val_main_v23_apply, val_main_v22_apply, dist_ref, val_main_v21_apply, val_main_cst_3_apply, val_main_v26_apply,
    val_main_cst_5_apply, val_main_call1_v1_apply, val_main_call1_v0_apply, val_main_cst_6_apply]
  rfl

/-! ## As whole arrays -/

theorem vecArr_ref : val_main_v17 (F := Ideal) x0 x1 x2 x3 x4
    = vecArr (val_main_v13 (F := Ideal) x0 x1) (val_main_v6 (F := Ideal) x0 x2) x3 (val_main_v15 (F := Ideal) x4) := by
  funext i
  obtain ⟨e, j, rfl⟩ : ∃ (e : Fin 3200000) (j : Fin 3), i = ix2 e j := ⟨i 0, i 1, eq_ix2 i⟩
  exact vec_ref x0 x1 x2 x3 x4 e j

theorem distArr_ref : val_main_v18 (F := Ideal) x0 x1 x2 x3 x4
    = distArr (val_main_v13 (F := Ideal) x0 x1) (val_main_v6 (F := Ideal) x0 x2) x3 (val_main_v15 (F := Ideal) x4) := by
  funext i
  obtain ⟨e, rfl⟩ : ∃ e : Fin 3200000, i = ix1 e := ⟨i 0, eq_ix1 i⟩
  exact dist_ref x0 x1 x2 x3 x4 e

theorem maskArr_ref : val_main_v20 (F := Ideal) x0 x1 x2 x3 x4
    = maskArr (val_main_v13 (F := Ideal) x0 x1) (val_main_v6 (F := Ideal) x0 x2) x3 (val_main_v15 (F := Ideal) x4) := by
  funext i
  obtain ⟨e, rfl⟩ : ∃ e : Fin 3200000, i = ix1 e := ⟨i 0, eq_ix1 i⟩
  exact mask_ref x0 x1 x2 x3 x4 e

theorem switchArr_ref : val_main_v28 (F := Ideal) x0 x1 x2 x3 x4
    = switchArr (val_main_v13 (F := Ideal) x0 x1) (val_main_v6 (F := Ideal) x0 x2) x3 (val_main_v15 (F := Ideal) x4) := by
  funext i
  obtain ⟨e, rfl⟩ : ∃ e : Fin 3200000, i = ix1 e := ⟨i 0, eq_ix1 i⟩
  exact switch_ref x0 x1 x2 x3 x4 e

end Cert.ReferenceIdeal.EdgeRef

end
-- ==== Proof.EdgeBridge.lean ====
/-
  The two programs prepare the same inputs.

  Before its region the kernel program wraps negative edge indices (`i < 0 ? i + 100000 : i`), gathers the coordinate
  rows at the edges' sources and at their destinations, and reshapes the 1 × 3 × 3 cell array to 3 × 3; the reference
  does the same three things with the same operations. So the arrays the region finds are the reference's own stages of
  the same arguments: its source rows, its destination rows and its cell matrix (the shift rows are an argument, untouched).
  The gather itself is never opened: it is the same function of the same operands on both sides.
-/
import proofs.«171223_j64012192579962_1_alg».proof.Proof.Gen.KernelIdeal.Frame
import proofs.«171223_j64012192579962_1_alg».proof.Proof.Gen.ReferenceIdeal.Read
import Idealize.ShloMosaic.Lib.StableHlo.Run

set_option maxRecDepth 16384

noncomputable section

namespace Cert.Proof.EdgeBridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

/-- The rows the region finds in its first window are the reference's rows gathered at the edges' sources. -/
theorem src_rows (c : Dev Cert.KernelIdeal.nD) :
    Cert.KernelIdeal.Gen.V m c Cert.KernelIdeal.main_v6
      = Cert.ReferenceIdeal.Read.val_main_v13 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v6) = _
  after_results
  rfl

/-- The rows it finds in its second window are the reference's rows gathered at the edges' destinations. -/
theorem dst_rows (c : Dev Cert.KernelIdeal.nD) :
    Cert.KernelIdeal.Gen.V m c Cert.KernelIdeal.main_v13
      = Cert.ReferenceIdeal.Read.val_main_v6 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)) := by
  show StableHlo.after Cert.KernelIdeal.Gen.hostOps0 (fun b => m (c, b)) (Proc.devRef .tc Cert.KernelIdeal.main_v13) = _
  after_results
  rfl

/-- The cell matrix it finds is the reference's reshaped cell array. -/
theorem cell_matrix (c : Dev Cert.KernelIdeal.nD) :
    Cert.KernelIdeal.Gen.V m c Cert.KernelIdeal.main_v14
      = Cert.ReferenceIdeal.Read.val_main_v15 (F := Ideal)
          (m ((c.tc : Thread Cert.KernelIdeal.nD Cert.KernelIdeal.τ).loc Cert.KernelIdeal.main_arg4)) := by
  show StableHlo.after Cert.KernelIdeal.Gen.hostOps0 (fun b => m (c, b)) (Proc.devRef .tc Cert.KernelIdeal.main_v14) = _
  after_results
  rfl

end Cert.Proof.EdgeBridge

end
-- ==== Proof.lean ====
/-
  The certificate of the periodic edge-vector kernel: for 3 200 000 edges between 100 000 points, the displacement
  `x[dst] − x[src] + shift · cells`, its length, the cutoff test `length < 5` and the cosine switch
  `½ cos(length · π/5) + ½` inside the cutoff (zero outside), computed 5120 edges at a time, against the same four
  results computed on whole arrays.

  Read on the extended reals the two programs differ in one place only: the kernel forms `shift · cells` as three
  column-times-row products added left to right, the reference as one contraction over the three coordinates; a sum over
  `Fin 3` is its three terms added left to right, and addition of extended reals is a commutative monoid, so the two agree
  at every input — the finiteness precondition is never opened. The square root, the cosine, the comparison with 5 and the
  float constants are the same functions and the same words on both sides. The kernel stores the cutoff bit as a 32-bit
  word and the host compares it with zero afterwards, which gives the bit back.

  Modules: EdgeSpec (the four results as functions of the gathered rows, and the one law), EdgeBody (the kernel body's stored
  values at an element), EdgeBlocks (block `t` is rows 5120·t … of each array), EdgeArrays (the output arrays after the run),
  EdgeRun (the kernel program's run with every result named), EdgeReference (the reference computes the same functions),
  EdgeBridge (both programs gather the same rows). The frames of the two kernel programs are the generated ones; the
  reference's frame is its generated run with the results dropped; no operation was rewritten by the idealization.
-/
import proofs.«171223_j64012192579962_1_alg».proof.Defs
import proofs.«171223_j64012192579962_1_alg».proof.Proof.Gen.Kernel
import proofs.«171223_j64012192579962_1_alg».proof.Proof.Gen.Kernel.Skeleton
import proofs.«171223_j64012192579962_1_alg».proof.Proof.Gen.Kernel.Launch
import proofs.«171223_j64012192579962_1_alg».proof.Proof.Gen.Kernel.Points
import proofs.«171223_j64012192579962_1_alg».proof.Proof.Gen.Kernel.Frame
import proofs.«171223_j64012192579962_1_alg».proof.Proof.Gen.KernelIdeal
import proofs.«171223_j64012192579962_1_alg».proof.Proof.Gen.KernelIdeal.Skeleton
import proofs.«171223_j64012192579962_1_alg».proof.Proof.Gen.KernelIdeal.Launch
import proofs.«171223_j64012192579962_1_alg».proof.Proof.Gen.KernelIdeal.Points
import proofs.«171223_j64012192579962_1_alg».proof.Proof.Gen.KernelIdeal.Frame
import proofs.«171223_j64012192579962_1_alg».proof.Proof.Gen.ReferenceIdeal
import proofs.«171223_j64012192579962_1_alg».proof.Proof.Gen.Pre_finite_inputs
import proofs.«171223_j64012192579962_1_alg».proof.Proof.Gen.ReferenceIdeal.Run
import proofs.«171223_j64012192579962_1_alg».proof.Proof.Gen.ReferenceIdeal.Read
import proofs.«171223_j64012192579962_1_alg».proof.Proof.EdgeRun
import proofs.«171223_j64012192579962_1_alg».proof.Proof.EdgeReference
import proofs.«171223_j64012192579962_1_alg».proof.Proof.EdgeBridge
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its generated run, the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From memories that agree on the arguments both programs end with the four results at the specification's functions
    of the same gathered rows, shift rows and cell matrix. -/
theorem algebraic : Cert.algebraic_KernelIdeal_ReferenceIdeal := by
  intro m ρ m' ρ' _ hagree
  refine ⟨_, _, _, _, Cert.KernelIdeal.EdgeValue.run m ρ, ?_⟩
  refine (θ_run Cert.ReferenceIdeal.defs _ _).mono (fun _ h c => ?_) (Cert.ReferenceIdeal.Value.run (F := Ideal) m' ρ')
  obtain ⟨h17, h18, h28, h20, hargs⟩ := h c
  obtain ⟨g0, g1, g2, g3, g4⟩ := hagree c
  refine ⟨?_, ?_, ?_, ?_, hargs⟩
  · rw [h17, Cert.ReferenceIdeal.Read.val_main_v17_eq, Cert.ReferenceIdeal.EdgeRef.vecArr_ref, g0, g1, g2, g3, g4,
      EdgeBridge.src_rows m c, EdgeBridge.dst_rows m c, EdgeBridge.cell_matrix m c, Cert.KernelIdeal.Gen.V_main_arg3 m c]
  · rw [h18, Cert.ReferenceIdeal.Read.val_main_v18_eq, Cert.ReferenceIdeal.EdgeRef.distArr_ref, g0, g1, g2, g3, g4,
      EdgeBridge.src_rows m c, EdgeBridge.dst_rows m c, EdgeBridge.cell_matrix m c, Cert.KernelIdeal.Gen.V_main_arg3 m c]
  · rw [h28, Cert.ReferenceIdeal.Read.val_main_v28_eq, Cert.ReferenceIdeal.EdgeRef.switchArr_ref, g0, g1, g2, g3, g4,
      EdgeBridge.src_rows m c, EdgeBridge.dst_rows m c, EdgeBridge.cell_matrix m c, Cert.KernelIdeal.Gen.V_main_arg3 m c]
  · rw [h20, Cert.ReferenceIdeal.Read.val_main_v20_eq, Cert.ReferenceIdeal.EdgeRef.maskArr_ref, g0, g1, g2, g3, g4,
      EdgeBridge.src_rows m c, EdgeBridge.dst_rows m c, EdgeBridge.cell_matrix m c, Cert.KernelIdeal.Gen.V_main_arg3 m c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
